-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S256x8192 : Shape := ⟨2, ![256, 8192]⟩

abbrev nBuf : Space → Nat
  | .hbm => 2
  | .vmem => 4
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .f32 = 32 ∨ (Rect.block (s := S4096x8192) S256x8192.size (cc0_transform_1 i) (hinb0_1 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)

variable [Facts₀]

class Facts : Prop extends Facts₀ where

variable [Facts]
-- ==== Proof.Literals.lean ====
/-
  The three float words the two programs spell, as the numbers they denote on the extended reals.

  An f32 word with sign 0, exponent field E and fraction T denotes (2^23 + T) · 2^(E − 127 − 23):
    0x40000000  (E = 128, T = 0)        is 2,
    0x40400000  (E = 128, T = 2^22)     is 3,
    0x3FC00000  (E = 127, T = 2^22)     is 3/2.
  All three are exact dyadic rationals, so nothing is rounded when the kernel writes 3/2 and 3 where the
  reference writes 2, 3 and 2. They are stated here once so that the modules that use them unfold neither
  the pattern reader nor its IEEE decoding.
-/
import Idealize.ShloMosaic.PureOps.Ideal

noncomputable section

namespace Cert.Affine.Literals

open Idealize.ShloMosaic

/-- The word 0x40000000 denotes the real number 2 (the reference's shift and its divisor). -/
theorem word_two : Ideal.ofBits .f32 0x40000000#32 = ((2 : ℝ) : EReal) := by
  simp [Ideal.ofBits, Ideal.ieee, -EReal.coe_mul]; norm_num

/-- The word 0x40400000 denotes the real number 3 (the reference's factor, and the kernel's offset). -/
theorem word_three : Ideal.ofBits .f32 0x40400000#32 = ((3 : ℝ) : EReal) := by
  simp [Ideal.ofBits, Ideal.ieee, -EReal.coe_mul]; norm_num

/-- The word 0x3FC00000 denotes the real number 3/2 (the kernel's slope). -/
theorem word_three_halves : Ideal.ofBits .f32 0x3FC00000#32 = ((3 / 2 : ℝ) : EReal) := by
  simp [Ideal.ofBits, Ideal.ieee, -EReal.coe_mul]; norm_num

end Cert.Affine.Literals

end
-- ==== Proof.AffineLaw.lean ====
/-
  The one law that joins the two programs: on the extended reals,

      ((x + 2) · 3) / 2  =  x · (3/2) + 3      for EVERY x in [−∞, +∞].

  On a real x this is the distributive law, (x + 2) · 3 / 2 = 3x/2 + 3. It also holds at the two infinities,
  with no appeal to distributivity (which fails there in general): adding a real to ±∞ leaves ±∞, a product of
  ±∞ with a POSITIVE real is ±∞, and division by the nonzero real 2 is the product with 1/2; so both sides
  are +∞ at x = +∞ and both are −∞ at x = −∞. Because the law holds at the infinities too, finiteness of the
  input is never used.
-/
import Idealize.ShloMosaic.PureOps.Ideal

noncomputable section

namespace Cert.Affine

open Idealize.ShloMosaic

/-- Shift by 2, scale by 3, divide by 2 is the affine map of slope 3/2 and offset 3, at every extended real. -/
theorem shift_scale_div (x : EReal) :
    Ideal.div ((x + ((2 : ℝ) : EReal)) * ((3 : ℝ) : EReal)) ((2 : ℝ) : EReal)
      = x * ((3 / 2 : ℝ) : EReal) + ((3 : ℝ) : EReal) := by
  rw [Ideal.div_coe (by norm_num : (2 : ℝ) ≠ 0)]
  induction x using EReal.rec with
  | bot =>
    -- −∞ + 2 = −∞, and −∞ times a positive real is −∞, on both sides
    rw [EReal.bot_add, EReal.bot_mul_coe_of_pos (by norm_num : (0 : ℝ) < 3),
      EReal.bot_mul_coe_of_pos (by norm_num : (0 : ℝ) < 1 / 2),
      EReal.bot_mul_coe_of_pos (by norm_num : (0 : ℝ) < 3 / 2), EReal.bot_add]
  | coe r =>
    -- on the reals: (r + 2) · 3 · (1/2) = r · (3/2) + 3
    rw [← EReal.coe_add, ← EReal.coe_mul, ← EReal.coe_mul, ← EReal.coe_mul, ← EReal.coe_add]
    congr 1
    ring
  | top =>
    -- +∞ + 2 = +∞, and +∞ times a positive real is +∞, on both sides
    rw [EReal.top_add_coe, EReal.top_mul_coe_of_pos (by norm_num : (0 : ℝ) < 3),
      EReal.top_mul_coe_of_pos (by norm_num : (0 : ℝ) < 1 / 2),
      EReal.top_mul_coe_of_pos (by norm_num : (0 : ℝ) < 3 / 2), EReal.top_add_coe]

end Cert.Affine

end
-- ==== Proof.Bridge.lean ====
/-
  The reference's result is the kernel's result, as functions of the one argument array x of shape 4096 × 8192.

  The reference computes, at every index i, ((x i + 2) · 3) / 2: it adds a broadcast scalar 2, multiplies by a
  broadcast scalar 3 and divides by a broadcast scalar 2. A broadcast of a scalar holds that scalar at every
  index, so index by index only the three numbers remain.
  The kernel's output array, tiled in sixteen blocks of 256 rows and computed block by block, is one whole-array
  function of x: at every index i it is x i · (3/2) + 3.
  With the three float words read as the numbers 2, 3 and 3/2, the two are equal at every index by the affine law
  on the extended reals, which holds at ±∞ as well as on the reals; no hypothesis on x is needed.
-/
import proofs.«137612_j76166950027701_2_alg».proof.Proof.Gen.KernelIdeal.Value
import proofs.«137612_j76166950027701_2_alg».proof.Proof.Gen.ReferenceIdeal.Run
import proofs.«137612_j76166950027701_2_alg».proof.Proof.Literals
import proofs.«137612_j76166950027701_2_alg».proof.Proof.AffineLaw

noncomputable section

namespace Cert.Affine

open Idealize.ShloMosaic Idealize.ShloMosaic.TcCoe Idealize.SL.Sem
open Cert.ReferenceIdeal Cert.ReferenceIdeal.Gen

/-- Shift by 2, scale by 3, divide by 2, all elementwise over the 4096 × 8192 array, is the array whose entry at
    each index is slope 3/2 times the argument's entry plus 3. -/
theorem reference_eq_kernel (x : FVec Ideal S4096x8192 .f32) :
    Host.divf
        (mulf
          (addf x (broadcastInDim S4096x8192 ![] bcast_S_S4096x8192 (constant S_ .f32 0x40000000#32)))
          (broadcastInDim S4096x8192 ![] bcast_S_S4096x8192 (constant S_ .f32 0x40400000#32)))
        (broadcastInDim S4096x8192 ![] bcast_S_S4096x8192 (constant S_ .f32 0x40000000#32))
      = Cert.KernelIdeal.Value.G1 (F := Ideal) x := by
  funext i
  -- at the index i: every broadcast is its scalar, every float operation its exact one, every word its number
  simp only [Cert.KernelIdeal.Value.G1, Host.divf, mulf, addf, broadcastInDim, constant, Ideal.hostDivf_def,
    Ideal.mulf_def, Ideal.addf_def, Ideal.ofBits_def, Literals.word_two, Literals.word_three,
    Literals.word_three_halves]
  exact shift_scale_div (x i)

end Cert.Affine

end
-- ==== Proof.lean ====
/-
  A row-tiled elementwise kernel against its elementwise reference, over one f32 array x of shape 4096 × 8192.

  The kernel walks a grid of sixteen points; point t loads rows 256·t … 256·t + 255 of x (a block of 256 × 8192),
  computes x · 1.5 + 3.0 on the block and writes it back to the same rows of the output. The blocks are disjoint
  and tile the array, so after the run the output is ONE function of x: entry i is x i · (3/2) + 3.
  The reference computes ((x + 2) · 3) / 2 elementwise on the whole array.

  On the extended reals a float is an exact number and each operation is the textbook one; the words 1.5, 3.0 and
  2.0 are exact dyadic numbers. So the two results agree index by index by the affine identity
      ((x + 2) · 3) / 2 = x · (3/2) + 3,
  which is distributivity on the reals and holds at ±∞ as well (both sides are ±∞ there, every factor being
  positive): the finiteness precondition is not needed for the value.

  The three frame statements (each program terminates without a fault and leaves its argument unchanged) are
  the runs of the two idealized programs with the value dropped, and the word-level kernel's own frame. The kernel
  is idealized by no rewrite at all, so there is nothing to preserve.
-/
import proofs.«137612_j76166950027701_2_alg».proof.Defs
import proofs.«137612_j76166950027701_2_alg».proof.Proof.Gen.Kernel.Frame
import proofs.«137612_j76166950027701_2_alg».proof.Proof.Gen.KernelIdeal.Value
import proofs.«137612_j76166950027701_2_alg».proof.Proof.Gen.Pre_finite_inputs
import proofs.«137612_j76166950027701_2_alg».proof.Proof.Gen.ReferenceIdeal.Run
import proofs.«137612_j76166950027701_2_alg».proof.Proof.Bridge
import Idealize.ShloMosaic.Adequacy
import Idealize.ShloMosaic.Init

noncomputable section

namespace Cert.Proof

open Idealize.ShloMosaic Idealize.SL.Sem

/-- The idealized kernel terminates, faults nowhere and keeps its argument: its run, the output's value dropped. -/
theorem frame_KernelIdeal : frame_KernelIdeal := fun m ρ _ =>
  (θ_run Cert.KernelIdeal.defs _ _).mono (fun _ h c => (h c).2) (Cert.KernelIdeal.Value.run (F := Ideal) m ρ)

/-- The idealized reference terminates, faults nowhere and keeps its argument: its run, the result's value dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on x, the kernel's output array ends at the array of x i · (3/2) + 3 and the
    reference's result at ((x + 2) · 3) / 2: the same array, by the affine identity at every index. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  -- the reference's result as a term of ITS argument, which is the kernel's argument
  rw [(h c).1]
  simp only [hagree c]
  exact Cert.Affine.reference_eq_kernel _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
